-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S16384x1024 : Shape := ⟨2, ![16384, 1024]⟩
abbrev S1x1 : Shape := ⟨2, ![1, 1]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1, .f32⟩
  | .hbm, ⟨3, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1x1, .f32⟩
  | .local _ .vmem, ⟨5, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v36 : BitVec 1 := Scalar.cmpi .eq arg0 c15_i32
  let v37 : BitVec 32 := Scalar.extui v36
  let c0_i32_13 : BitVec 32 := 0#32
  let v38 : BitVec 1 := Scalar.cmpi .ne v37 c0_i32_13
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x512_0_0 : ∀ a, (![0, 0] : Fin 2 → Nat) a + S1024x512.size a ≤ S1024x1024.size a
  h_S1024x512 : 0 < S1024x512.numel
  inb_S1024x1024_S1024x512_0_512 : ∀ a, (![0, 512] : Fin 2 → Nat) a + S1024x512.size a ≤ S1024x1024.size a
  inb_S1024x512_S1024x512_0_0 : ∀ a, (![0, 0] : Fin 2 → Nat) a + S1024x512.size a ≤ S1024x512.size a
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x1024.size a
  hwx0_1 : ∀ i : grid0.Coords, EltTy.bits .f32 = 32 ∨ (Rect.block (s := S16384x1024) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x1024 : Shape := ⟨2, ![16384, 1024]⟩
abbrev S16384x512 : Shape := ⟨2, ![16384, 512]⟩
abbrev S_ : Shape := ⟨0, ![]⟩
abbrev S16384 : Shape := ⟨1, ![16384]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S_, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .i1⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]

class Facts₀ : Prop where
  slices_S16384x1024_S16384x512_0_0 : S16384x1024.Slices ![0, 0] S16384x512
  slices_S16384x1024_S16384x512_0_512 : S16384x1024.Slices ![0, 512] S16384x512
  bcast_S_S16384x512 : S_.BroadcastsInDim S16384x512 (![] : Fin 0 → Fin S16384x512.rank)
  reducesTo_S16384x512_S16384_d1 : S16384x512.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.Pieces.lean ====
/-
  What one grid point's body leaves behind, as the body's arithmetic applied to the point's two input blocks.

  The body reads three 1024 x 512 pieces — the left half of the first block (the means), its right half (the raw
  scales) and the whole second block (the targets) — adds their summed-up summands to the one-word accumulator it
  carries from point to point, and stores the accumulator back.  At the first point it zeroes the accumulator first,
  so the carried-in value is the zero word; at the last point it also stores the scaled accumulator into the output
  word.  Each case's stores cover the one-word buffers, so what the buffers hold afterwards is the stored value.
-/
import proofs.«120077_j14637248544954_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Columns 0 to 511 of a 1024 x 1024 block: the means. -/
abbrev ldMean (x0 : Vec F S1024x1024 .f32) : Vec F S1024x512 .f32 :=
  View.ld x0 (Rect.unit (s := S1024x1024) ![0, 0] S1024x512.size inb_S1024x1024_S1024x512_0_0)

/-- Columns 512 to 1023 of a 1024 x 1024 block: the raw scales. -/
abbrev ldRaw (x0 : Vec F S1024x1024 .f32) : Vec F S1024x512 .f32 :=
  View.ld x0 (Rect.unit (s := S1024x1024) ![0, 512] S1024x512.size inb_S1024x1024_S1024x512_0_512)

/-- What a point's body leaves in the accumulator when it carried `acc` in: `acc` plus the blocks' summed summands. -/
abbrev step (x0 : Vec F S1024x1024 .f32) (x1 : Vec F S1024x512 .f32) (acc : Vec F S1x1 .f32) : Vec F S1x1 .f32 :=
  k0_pay3 (ldMean x0) (ldRaw x0) x1 acc

/-- A middle point: the accumulator steps from what the point before left. -/
theorem sout_B (c : Dev nD) (i : grid0.Coords) (a1 : Memref sig .tc .vmem S1024x1024 .f32) (h1 : a1.IsWhole)
    (a2 : Memref sig .tc .vmem S1024x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S1024x1024 .f32) (x1 : Vec F S1024x512 .f32) (xs0 : Vec F S1x1 .f32) :
    sout0_B_0 c i a1 h1 a2 h2 a3 h3 a4 h4 hc0 hc1 x0 x1 xs0 = step x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero (S := S1x1) hz]
  simp only [View.readAt_eq_ld, h1.read_unread, h2.read_unread, h4.read_unread, View.ld_unit_zero (S := S1024x512) hz,
    View.ld_unit_zero (S := S1x1) hz]

/-- The last point: the accumulator steps as at a middle point, -/
theorem sout_C (c : Dev nD) (i : grid0.Coords) (a1 : Memref sig .tc .vmem S1024x1024 .f32) (h1 : a1.IsWhole)
    (a2 : Memref sig .tc .vmem S1024x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S1024x1024 .f32) (x1 : Vec F S1024x512 .f32) (xs0 : Vec F S1x1 .f32) :
    sout0_C_0 c i a1 h1 a2 h2 a3 h3 a4 h4 hc0 hc1 x0 x1 xs0 = step x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero (S := S1x1) hz]
  simp only [View.readAt_eq_ld, h1.read_unread, h2.read_unread, h4.read_unread, View.ld_unit_zero (S := S1024x512) hz,
    View.ld_unit_zero (S := S1x1) hz]

/-- and the output word is the scaled accumulator, read back after that step. -/
theorem out_C (c : Dev nD) (i : grid0.Coords) (a1 : Memref sig .tc .vmem S1024x1024 .f32) (h1 : a1.IsWhole)
    (a2 : Memref sig .tc .vmem S1024x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S1024x1024 .f32) (x1 : Vec F S1024x512 .f32) (xs0 : Vec F S1x1 .f32) :
    out0_C_2 c i a1 h1 a2 h2 a3 h3 a4 h4 hc0 hc1 x0 x1 xs0 = k0_pay1 (step x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero (S := S1x1) hz, View.readCov_unit_zero (S := S1x1) _ hz]
  simp only [View.readAt_eq_ld, h1.read_unread, h2.read_unread, h4.read_unread, View.ld_unit_zero (S := S1024x512) hz,
    View.ld_unit_zero (S := S1x1) hz]

/-- The first point: the accumulator is zeroed, read back, and stepped. -/
theorem sout_A (c : Dev nD) (i : grid0.Coords) (a1 : Memref sig .tc .vmem S1024x1024 .f32) (h1 : a1.IsWhole)
    (a2 : Memref sig .tc .vmem S1024x512 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S1024x1024 .f32) (x1 : Vec F S1024x512 .f32) :
    sout0_A_0 c i a1 h1 a2 h2 a3 h3 a4 h4 hc0 hc1 x0 x1 = step x0 x1 k0_pay2 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1024x512) hz]

end Cert.KernelIdeal.Pieces

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRealOps.lean ====
/-
  Real numbers inside the extended reals: the facts that carry "every value is a real number" through a program.

  A program read over the extended reals is exact, but its algebra is the reals' only where no infinity occurs:
  distributivity and cancellation fail at an infinite factor. A precondition that every input is finite therefore has
  to be carried through the program: each intermediate is shown to be the coercion of a real, and the law wanted is then
  the reals'. This file has the two element tests a printed precondition is made of (|x| < +infinity says x is a real;
  v >= 0 says what it says), and the closure of the reals under what such programs do to them: a finite sum (this
  Mathlib has no coercion lemma for it), a sum of products (a matrix product's entry) onto a real accumulator, a quotient
  by a non-zero real, a maximum, and a square root of a non-negative real.
-/
import Idealize.ShloMosaic.PureOps.Ideal

noncomputable section

namespace Idealize.ShloMosaic.RealOps

open Idealize.ShloMosaic

/-! ## The element tests of a precondition -/

/-- The f32 pattern of +infinity denotes the top element. -/
theorem ofBits_pos_inf : Ideal.ofBits .f32 0x7F800000#32 = (⊤ : EReal) := by
  simp [Ideal.ofBits, Ideal.ieee]

/-- An extended real is below the top in absolute value exactly when it is a real number. -/
theorem abs_lt_top_iff (x : EReal) : max x (-x) < ⊤ ↔ ∃ r : ℝ, x = (r : EReal) := by
  induction x using EReal.rec with
  | bot => simp
  | coe r =>
    refine ⟨fun _ => ⟨r, rfl⟩, fun _ => ?_⟩
    rw [← EReal.coe_neg, max_lt_iff]
    exact ⟨EReal.coe_lt_top r, EReal.coe_lt_top (-r)⟩
  | top => simp

/-- The finiteness test as a program prints it: the comparison "|x| < +infinity" answers 1 exactly when x is a real. -/
theorem cmp_abs_lt_inf (x : EReal) :
    Ideal.cmp .olt (max x (-x)) (Ideal.ofBits .f32 0x7F800000#32) = 1#1 ↔ ∃ r : ℝ, x = (r : EReal) := by
  rw [ofBits_pos_inf, ← abs_lt_top_iff]
  unfold Ideal.cmp
  by_cases h : max x (-x) < ⊤ <;> simp [h]

/-- The sign test as a program prints it: "v >= 0" answers 1 exactly when 0 <= v. -/
theorem cmp_ge_zero (v : EReal) : Ideal.cmp .oge v 0 = 1#1 ↔ 0 ≤ v := by
  unfold Ideal.cmp
  by_cases h : (0 : EReal) ≤ v <;> simp [h]

/-! ## Closure of the reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} (s : Finset ι) (a b : ι → ℝ) :
    ∑ k ∈ s, (a k : EReal) * (b k : EReal) = ((∑ k ∈ s, a k * b k : ℝ) : EReal) := by
  rw [coe_sum]
  exact Finset.sum_congr rfl fun k _ => (EReal.coe_mul _ _).symm

/-- The same onto a real accumulator: an entry of a matrix product of real matrices is a real. -/
theorem acc_add_sum_mul_coe {ι : Type*} (s : Finset ι) (acc : ℝ) (a b : ι → ℝ) :
    (acc : EReal) + ∑ k ∈ s, (a k : EReal) * (b k : EReal) = ((acc + ∑ k ∈ s, a k * b k : ℝ) : EReal) := by
  rw [sum_mul_coe, EReal.coe_add]

/-- A quotient of reals by a non-zero real, as a program takes it, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A maximum of reals is the real maximum. -/
theorem max_coe (a b : ℝ) : max (a : EReal) (b : EReal) = ((max a b : ℝ) : EReal) :=
  (EReal.coe_strictMono.monotone.map_max).symm

/-- The square root of a non-negative real, as a program takes it, is the real square root. -/
theorem sqrt_coe_of_nonneg {r : ℝ} (hr : 0 ≤ r) : Ideal.sqrt (r : EReal) = ((Real.sqrt r : ℝ) : EReal) := by
  show (if r < 0 then (⊥ : EReal) else (Real.sqrt r : EReal)) = _
  rw [if_neg (not_lt.2 hr)]

end Idealize.ShloMosaic.RealOps

end
-- ==== Proof.Term.lean ====
/-
  The summand of the diagonal Gaussian negative log-likelihood, on the extended reals and on the reals.

  With mean a, raw scale x and target t, the variance is softplus x = max x 0 + log (1 + exp (-|x|)), a positive real
  for every real x, and the summand is  c + log (softplus x) + (t - a)^2 / softplus x  with c the constant standing
  for log (2 pi).  For real a, x, t every intermediate value is a real number, so the summand is the coercion of a
  real: this is what lets sums of summands be handled by the algebra of the reals.  The constants the two programs
  spell (the zero, 2^-15, -1/2, 16384) are given their values here as well.
-/
import Idealize.ShloMosaic.PureOps.Ideal.Laws
import proofs.«120077_j14637248544954_1_alg».proof.Proof.LibRealOps

noncomputable section

namespace Cert.Nll

open Idealize.ShloMosaic

/-! ## The constants -/

/-- The pattern of 2^-15 = 0.5 / 16384. -/
theorem ofBits_scale : Ideal.ofBits .f32 0x38000000#32 = ((1 / 32768 : ℝ) : EReal) := by
  simp [Ideal.ofBits, Ideal.ieee, -EReal.coe_mul]; norm_num

/-- The pattern of -1/2. -/
theorem ofBits_neg_half : Ideal.ofBits .f32 0xBF000000#32 = ((-(1 / 2) : ℝ) : EReal) := by
  simp [Ideal.ofBits, Ideal.ieee, -EReal.coe_mul]; norm_num

/-- The pattern of 16384, the batch size. -/
theorem ofBits_batch : Ideal.ofBits .f32 0x46800000#32 = ((16384 : ℝ) : EReal) := by
  simp [Ideal.ofBits, Ideal.ieee, -EReal.coe_mul]; norm_num

/-- The constant standing for log (2 pi), as a real number: the value its pattern denotes. -/
def c2pi : ℝ := (Ideal.ofBits .f32 0x3FEB3F8E#32).toReal

/-- Its pattern denotes a real number (a normal binary32 value), namely that one. -/
theorem ofBits_c2pi : Ideal.ofBits .f32 0x3FEB3F8E#32 = ((c2pi : ℝ) : EReal) := by
  have h : ∃ r : ℝ, Ideal.ofBits .f32 0x3FEB3F8E#32 = ((r : ℝ) : EReal) := by
    simp [Ideal.ofBits, Ideal.ieee, -EReal.coe_mul]
    try exact ⟨_, rfl⟩
  obtain ⟨r, hr⟩ := h
  unfold c2pi
  rw [hr, EReal.toReal_coe]

/-! ## The variance -/

/-- softplus on the extended reals, in the operations both programs use. -/
def softplus (x : EReal) : EReal := max x 0 + Ideal.log1p (Ideal.exp (-(max x (-x))))

/-- softplus on the reals. -/
def softplusR (x : ℝ) : ℝ := max x 0 + Real.log (1 + Real.exp (-|x|))

theorem one_lt_one_add_exp (r : ℝ) : 1 < 1 + Real.exp r := by
  have := Real.exp_pos r
  linarith

/-- softplus of a real is positive. -/
theorem softplusR_pos (x : ℝ) : 0 < softplusR x := by
  unfold softplusR
  have h1 : 0 ≤ max x 0 := le_max_right _ _
  have h2 : 0 < Real.log (1 + Real.exp (-|x|)) := Real.log_pos (one_lt_one_add_exp _)
  linarith

/-- On a real, softplus is the coercion of the real softplus. -/
theorem softplus_coe (x : ℝ) : softplus (x : EReal) = ((softplusR x : ℝ) : EReal) := by
  unfold softplus softplusR Ideal.log1p
  rw [← EReal.coe_zero, RealOps.max_coe, ← EReal.coe_neg, RealOps.max_coe, ← abs_eq_max_neg, ← EReal.coe_neg,
    Ideal.exp_coe, ← EReal.coe_one, ← EReal.coe_add, Ideal.log_coe,
    if_neg (not_le.2 (lt_trans one_pos (one_lt_one_add_exp _))), ← EReal.coe_add]

/-! ## The summand -/

/-- The summand on the extended reals. -/
def term (a x t : EReal) : EReal :=
  (Ideal.ofBits .f32 0x3FEB3F8E#32 + Ideal.log (softplus x)) + Ideal.div ((t - a) * (t - a)) (softplus x)

/-- The summand on the reals. -/
def termR (a x t : ℝ) : ℝ := (c2pi + Real.log (softplusR x)) + (t - a) * (t - a) / softplusR x

/-- At real arguments the summand is the coercion of the real summand. -/
theorem term_coe (a x t : ℝ) : term (a : EReal) (x : EReal) (t : EReal) = ((termR a x t : ℝ) : EReal) := by
  unfold term termR
  rw [softplus_coe, ofBits_c2pi, Ideal.log_coe, if_neg (not_le.2 (softplusR_pos x)), ← EReal.coe_sub, ← EReal.coe_mul,
    RealOps.div_coe_coe _ (ne_of_gt (softplusR_pos x)), ← EReal.coe_add, ← EReal.coe_add]

end Cert.Nll

end
-- ==== Proof.Payload.lean ====
/-
  The body's arithmetic on the extended reals, read at an index.

  The accumulator step adds to the carried word the sum, over the 1024 rows and 512 columns of the point's pieces, of
  the summand of the row's mean, raw scale and target: the two lane sums are plain finite sums, and the re-castings
  between a vector, a column and a one-word matrix keep the row-major position.  The summand as the body spells it
  (softplus guarded by a test "x - 0 differs from itself", which no extended real passes, and the negated absolute
  value written as a subtraction from zero) is the summand of Term.lean.  The zero word and the scaling by 2^-15 are
  read likewise.
-/
import proofs.«120077_j14637248544954_1_alg».proof.Proof.Gen.KernelIdeal.Skeleton
import Idealize.ShloMosaic.PureOps.Ideal.Laws
import Idealize.ShloMosaic.Lib.ValueIdx
import Idealize.ShloMosaic.Lib.Pipeline.Value
import proofs.«120077_j14637248544954_1_alg».proof.Proof.LibColumn
import proofs.«120077_j14637248544954_1_alg».proof.Proof.Term

noncomputable section

open Idealize.ShloMosaic Idealize.ShloMosaic.ValueIdx

namespace Cert.KernelIdeal.Payload

open Cert.KernelIdeal Cert.KernelIdeal.Gen

/-! ## The summand as the body spells it -/

/-- No extended real differs from itself: the body's guard never fires. -/
theorem cmp_one_self (y : EReal) : Ideal.cmp .one y y = 0#1 := by
  unfold Ideal.cmp; simp

/-- The summand at one element, operation by operation as the body computes it. -/
def termK (a x t : EReal) : EReal :=
  (Ideal.ofBits .f32 0x3FEB3F8E#32
      + Ideal.log (Scalar.select (Ideal.cmp .one (x - Ideal.ofBits .f32 0x00000000#32) (x - Ideal.ofBits .f32 0x00000000#32))
          (x + Ideal.ofBits .f32 0x00000000#32)
          (max x (Ideal.ofBits .f32 0x00000000#32)
            + Ideal.log1p (Ideal.exp (Ideal.ofBits .f32 0x00000000#32
                - max (x - Ideal.ofBits .f32 0x00000000#32) (-(x - Ideal.ofBits .f32 0x00000000#32)))))))
    + Ideal.div ((t - a) * (t - a))
        (Scalar.select (Ideal.cmp .one (x - Ideal.ofBits .f32 0x00000000#32) (x - Ideal.ofBits .f32 0x00000000#32))
          (x + Ideal.ofBits .f32 0x00000000#32)
          (max x (Ideal.ofBits .f32 0x00000000#32)
            + Ideal.log1p (Ideal.exp (Ideal.ofBits .f32 0x00000000#32
                - max (x - Ideal.ofBits .f32 0x00000000#32) (-(x - Ideal.ofBits .f32 0x00000000#32))))))

/-- It is the summand. -/
theorem termK_eq (a x t : EReal) : termK a x t = Nll.term a x t := by
  unfold termK Nll.term Nll.softplus
  simp only [Ideal.ofBits_zero_f32, sub_zero, add_zero, zero_sub, cmp_one_self, select_zero]

/-! ## The lane sums and the re-castings -/

/-- The sum along a row. -/
theorem rowSum (w : FVec Ideal S1024x512 .f32) (r : Fin 1024) :
    multiReduction .add [1] S1024 w 0x00000000#32 reduces_S1024x512_S1024 (.inl rfl) rfl (ix1 r)
      = ∑ d : Fin 512, w (ix2 r d) := by
  refine (Ideal.multiReduction_add_single w 0x00000000#32 reduces_S1024x512_S1024 (.inl rfl) rfl (ix1 r)).trans ?_
  show ∑ d : Fin 512, w (reduces_S1024x512_S1024.lift (ix1 r) d) = _
  exact Finset.sum_congr rfl fun d _ => congrArg w (funext fun a => Fin.ext (by
    match a with | ⟨0, _⟩ => rfl | ⟨1, _⟩ => rfl))

/-- The sum down a column of height 1024 and width one. -/
theorem colSum (w : FVec Ideal S1024x1 .f32) :
    multiReduction .add [0] S1 w 0x00000000#32 reduces_S1024x1_S1 (.inl rfl) rfl (ix1 (0 : Fin 1))
      = ∑ r : Fin 1024, w (ix2 r (0 : Fin 1)) := by
  refine (Ideal.multiReduction_add_single w 0x00000000#32 reduces_S1024x1_S1 (.inl rfl) rfl (ix1 (0 : Fin 1))).trans ?_
  show ∑ r : Fin 1024, w (reduces_S1024x1_S1.lift (ix1 (0 : Fin 1)) r) = _
  exact Finset.sum_congr rfl fun r _ => congrArg w (funext fun a => Fin.ext (by
    match a with | ⟨0, _⟩ => rfl | ⟨1, _⟩ => rfl))

/-- The body's reduction tail: a 1024 x 512 array summed along rows, re-cast as a column, summed down, re-cast as a
    one-word matrix and added to the carried word. -/
theorem addUp (w : FVec Ideal S1024x512 .f32) (v31 : FVec Ideal S1x1 .f32) :
    shapeCast S1x1 (addf v31 (shapeCast S1x1 (multiReduction .add [0] S1
        (shapeCast S1024x1 (multiReduction .add [1] S1024 w 0x00000000#32 reduces_S1024x512_S1024 (.inl rfl) rfl)
          shapeCasts_S1024_S1024x1) 0x00000000#32 reduces_S1024x1_S1 (.inl rfl) rfl) shapeCasts_S1_S1x1))
      shapeCasts_S1x1_S1x1 (ix2 (0 : Fin 1) (0 : Fin 1))
      = v31 (ix2 (0 : Fin 1) (0 : Fin 1)) + ∑ r : Fin 1024, ∑ d : Fin 512, w (ix2 r d) := by
  rw [shapeCast_self]
  refine congrArg (v31 (ix2 (0 : Fin 1) (0 : Fin 1)) + ·) ?_
  refine (LibColumn.shapeCast_a_a1_apply _ shapeCasts_S1_S1x1 (0 : Fin 1) (0 : Fin 1)).trans ?_
  refine (colSum _).trans ?_
  refine Finset.sum_congr rfl fun r _ => ?_
  refine (LibColumn.shapeCast_a_a1_apply _ shapeCasts_S1024_S1024x1 r (0 : Fin 1)).trans ?_
  exact rowSum w r

/-! ## The payloads -/

/-- The accumulator step, at its one index: the carried word plus the sum of the pieces' summands. -/
theorem pay3_apply (v3 v4 v5 : FVec Ideal S1024x512 .f32) (v31 : FVec Ideal S1x1 .f32) :
    k0_pay3 (F := Ideal) v3 v4 v5 v31 (ix2 (0 : Fin 1) (0 : Fin 1))
      = v31 (ix2 (0 : Fin 1) (0 : Fin 1))
        + ∑ r : Fin 1024, ∑ d : Fin 512, Nll.term (v3 (ix2 r d)) (v4 (ix2 r d)) (v5 (ix2 r d)) := by
  unfold k0_pay3
  refine (addUp _ v31).trans ?_
  refine congrArg (v31 (ix2 (0 : Fin 1) (0 : Fin 1)) + ·) ?_
  refine Finset.sum_congr rfl fun r _ => Finset.sum_congr rfl fun d _ => ?_
  exact (show _ = termK (v3 (ix2 r d)) (v4 (ix2 r d)) (v5 (ix2 r d)) from rfl).trans (termK_eq _ _ _)

/-- The zero word the first point stores. -/
theorem pay2_apply : k0_pay2 (F := Ideal) (ix2 (0 : Fin 1) (0 : Fin 1)) = 0 := by
  unfold k0_pay2
  rw [shapeCast_self]
  exact Ideal.ofBits_zero_f32

/-- The output word: 2^-15 times the accumulator. -/
theorem pay1_apply (v39 : FVec Ideal S1x1 .f32) :
    k0_pay1 (F := Ideal) v39 (ix2 (0 : Fin 1) (0 : Fin 1))
      = Ideal.ofBits .f32 0x38000000#32 * v39 (ix2 (0 : Fin 1) (0 : Fin 1)) := rfl

end Cert.KernelIdeal.Payload

end
-- ==== Proof.LibTiles.lean ====
/-
  Sums over a batch cut into equal tiles.

  A batch of N = T · R rows cut into T tiles of R rows: summing each tile and then the tiles' sums is summing the batch,
  in any commutative monoid.  Row r of tile t is row t · R + r of the batch.
-/
import Mathlib.Algebra.BigOperators.Fin
import Mathlib.Logic.Equiv.Fin.Basic
import Mathlib.Algebra.BigOperators.Group.Finset.Basic
import Mathlib.Tactic.Ring
import Mathlib.Tactic.Linarith

namespace Cert.Tiles

/-- Row r of tile t lies in the batch. -/
theorem tile_lt {T R N : ℕ} (hN : T * R = N) (t : Fin T) (r : Fin R) : t.val * R + r.val < N := by
  have ht := t.isLt
  have hr := r.isLt
  calc t.val * R + r.val < t.val * R + R := by omega
    _ = (t.val + 1) * R := by ring
    _ ≤ T * R := Nat.mul_le_mul_right R ht
    _ = N := hN

/-- Row r of tile t as a row of the batch. -/
def row {T R N : ℕ} (hN : T * R = N) (t : Fin T) (r : Fin R) : Fin N := ⟨t.val * R + r.val, tile_lt hN t r⟩

/-- The tiles' sums add up to the batch's sum. -/
theorem sum_tiles {M : Type*} [AddCommMonoid M] {T R N : ℕ} (hN : T * R = N) (f : Fin N → M) :
    ∑ t : Fin T, ∑ r : Fin R, f (row hN t r) = ∑ i : Fin N, f i := by
  subst hN
  rw [← Equiv.sum_comp finProdFinEquiv f, Fintype.sum_prod_type]
  refine Finset.sum_congr rfl fun t _ => Finset.sum_congr rfl fun r _ => congrArg f (Fin.ext ?_)
  show t.val * R + r.val = r.val + R * t.val
  ring

end Cert.Tiles
-- ==== Proof.Sums.lean ====
/-
  The two programs' results as functions of the two argument arrays, and the law that joins them.

  Write s(b, d) for the summand of batch row b and column d (mean and target in columns 0..511 of the two arrays, raw
  scale in columns 512..1023 of the first).  The kernel walks the 16384 rows in 16 tiles of 1024, keeps a running
  total of the tiles' sums, and scales the last total by 2^-15.  The reference multiplies each row's sum by -1/2, sums
  the rows, divides by 16384 and negates.  Regrouping the kernel's sums is free in any commutative monoid; moving the
  factor -1/2 across the sum over rows is a law of the reals that fails at infinities, so the law is proved for arrays
  of real numbers, where every summand, and hence every sum, is a real.
-/
import Idealize.ShloMosaic.Lib.ValueIdx
import proofs.«120077_j14637248544954_1_alg».proof.Proof.Term
import proofs.«120077_j14637248544954_1_alg».proof.Proof.LibTiles

noncomputable section

namespace Cert.Nll

open Idealize.ShloMosaic Idealize.ShloMosaic.ValueIdx

/-- An argument array: 16384 rows of 1024 extended reals. -/
abbrev Arr : Type := (⟨2, ![16384, 1024]⟩ : Shape).Idx → EReal

/-- Column d of the left half. -/
def lo (d : Fin 512) : Fin 1024 := ⟨d.val, by have := d.isLt; omega⟩
/-- Column d of the right half. -/
def hi (d : Fin 512) : Fin 1024 := ⟨512 + d.val, by have := d.isLt; omega⟩

/-- The summand of batch row b and column d. -/
def entry (x0 x1 : Arr) (b : Fin 16384) (d : Fin 512) : EReal :=
  term (x0 (ix2 b (lo d))) (x0 (ix2 b (hi d))) (x1 (ix2 b (lo d)))

/-- A row's sum. -/
def rowTotal (x0 x1 : Arr) (b : Fin 16384) : EReal := ∑ d : Fin 512, entry x0 x1 b d

/-- Tile n's sum: rows 1024 n to 1024 n + 1023. -/
def tileTotal (x0 x1 : Arr) (n : Fin 16) : EReal := ∑ r : Fin 1024, rowTotal x0 x1 (Tiles.row (N := 16384) rfl n r)

/-- The same with the tile a natural number (zero past the last tile). -/
def tileTotalN (x0 x1 : Arr) (n : ℕ) : EReal := if h : n < 16 then tileTotal x0 x1 ⟨n, h⟩ else 0

/-- At a tile of the batch it is that tile's sum. -/
theorem tileTotalN_of_lt (x0 x1 : Arr) (n : ℕ) (h : n < 16) : tileTotalN x0 x1 n = tileTotal x0 x1 ⟨n, h⟩ := dif_pos h

/-- The running total after tile n. -/
def chain (x0 x1 : Arr) : ℕ → EReal
  | 0 => tileTotalN x0 x1 0
  | n + 1 => chain x0 x1 n + tileTotalN x0 x1 (n + 1)

/-- The kernel's result. -/
def kernelVal (x0 x1 : Arr) : EReal := Ideal.ofBits .f32 0x38000000#32 * chain x0 x1 15

/-- The reference's result. -/
def refVal (x0 x1 : Arr) : EReal :=
  -(Ideal.div (∑ b : Fin 16384, Ideal.ofBits .f32 0xBF000000#32 * rowTotal x0 x1 b) (Ideal.ofBits .f32 0x46800000#32))

/-- The running total is the sum of the tiles so far. -/
theorem chain_eq_sum (x0 x1 : Arr) : ∀ n : ℕ, chain x0 x1 n = ∑ k ∈ Finset.range (n + 1), tileTotalN x0 x1 k
  | 0 => by rw [Finset.sum_range_one]; rfl
  | n + 1 => by rw [Finset.sum_range_succ, ← chain_eq_sum x0 x1 n]; rfl

/-- After the last tile it is the sum over the whole batch. -/
theorem chain_last (x0 x1 : Arr) : chain x0 x1 15 = ∑ b : Fin 16384, rowTotal x0 x1 b := by
  rw [chain_eq_sum, Finset.sum_range, ← Tiles.sum_tiles (T := 16) (R := 1024) (N := 16384) rfl]
  exact Finset.sum_congr rfl fun n _ => tileTotalN_of_lt x0 x1 n.val n.isLt

/-- A sum over the indices of a rank-one shape is the sum over its coordinate. -/
theorem sum_idx1 {M : Type*} [AddCommMonoid M] {n : ℕ} (f : (⟨1, ![n]⟩ : Shape).Idx → M) :
    ∑ j, f j = ∑ a : Fin n, f (ix1 a) := by
  let e : Fin n ≃ (⟨1, ![n]⟩ : Shape).Idx :=
    { toFun := fun a => ix1 a, invFun := fun j => j 0, left_inv := fun _ => rfl, right_inv := fun j => (eq_ix1 j).symm }
  exact (Equiv.sum_comp e f).symm

/-- On arrays of real numbers the two results are one real number. -/
theorem kernelVal_eq_refVal (x0 x1 : Arr) (h0 : ∀ i, ∃ r : ℝ, x0 i = (r : EReal)) (h1 : ∀ i, ∃ r : ℝ, x1 i = (r : EReal)) :
    kernelVal x0 x1 = refVal x0 x1 := by
  choose f0 hf0 using h0
  choose f1 hf1 using h1
  have hrow : ∀ b, rowTotal x0 x1 b
      = ((∑ d : Fin 512, termR (f0 (ix2 b (lo d))) (f0 (ix2 b (hi d))) (f1 (ix2 b (lo d))) : ℝ) : EReal) := by
    intro b
    unfold rowTotal entry
    rw [RealOps.coe_sum]
    exact Finset.sum_congr rfl fun d _ => by rw [hf0, hf0, hf1, term_coe]
  unfold kernelVal refVal
  rw [chain_last, ofBits_scale, ofBits_neg_half, ofBits_batch]
  simp only [hrow, ← EReal.coe_mul]
  rw [← RealOps.coe_sum, ← RealOps.coe_sum, ← EReal.coe_mul, RealOps.div_coe_coe _ (by norm_num : (16384 : ℝ) ≠ 0),
    ← EReal.coe_neg, ← Finset.mul_sum]
  refine congrArg _ ?_
  ring

end Cert.Nll

end
-- ==== Proof.KernelValue.lean ====
/-
  What the kernel's program computes: its result word is 2^-15 times the sum over the whole batch, tile by tile.

  Point t of the grid sees rows 1024 t to 1024 t + 1023 of the two argument arrays (the whole width of the first, the
  left half of the second), so the three pieces its body loads are the means, raw scales and targets of tile t, and the
  step it makes adds tile t's sum to the accumulator.  By induction on the point the accumulator after point n is the
  running total of tiles 0..n; the last point stores 2^-15 times the final total into the output word, which is the
  only write-back of the one-word output array; the reshape after the region reads that word as the scalar result.
-/
import proofs.«120077_j14637248544954_1_alg».proof.Proof.Gen.KernelIdeal.Frame
import Idealize.ShloMosaic.Lib.Pipeline.Value
import Idealize.ShloMosaic.Lib.StableHlo.Run
import Idealize.ShloMosaic.Lib.Tactic
import proofs.«120077_j14637248544954_1_alg».proof.Proof.Pieces
import proofs.«120077_j14637248544954_1_alg».proof.Proof.Payload
import proofs.«120077_j14637248544954_1_alg».proof.Proof.Sums

noncomputable section

open Idealize.ShloMosaic Idealize.ShloMosaic.TcCoe Idealize.SL.Sem Idealize.ShloMosaic.ValueIdx
open Idealize.ShloMosaic.Pipeline (Dat)

namespace Cert.KernelIdeal.NllValue

open Cert.KernelIdeal Cert.KernelIdeal.Gen

variable (m : (ℓ : Loc nD τ sig) → Buf (Elt Ideal) ℓ) (ρ : Dev nD → PrngReg)

/-- The first argument array (means and raw scales) on core c. -/
abbrev X0 (c : Dev nD) : Nll.Arr := m ((c : Thread nD τ).loc main_arg0)
/-- The second argument array (targets) on core c. -/
abbrev X1 (c : Dev nD) : Nll.Arr := m ((c : Thread nD τ).loc main_arg1)

/-- The tile a grid point works on. -/
def tile (t : Fin cfg0.N) : Fin 16 := ⟨t.val, lt_of_lt_of_eq t.isLt N_0⟩

/-! ## The blocks a point sees -/

/-- Both input windows step down the rows with the point and stay at column block 0; the output window never moves. -/
theorem idx_facts : ∀ t : Fin cfg0.N,
    (win0_0.index t 0 = t.val ∧ win0_0.index t 1 = 0) ∧ (win0_1.index t 0 = t.val ∧ win0_1.index t 1 = 0)
      ∧ (win0_2.index t 0 = 0 ∧ win0_2.index t 1 = 0) :=
  (by decide +kernel : ∀ t : Fin grid0.N, _)

/-- Entry j of point t's first block is entry (1024 t + j₀, j₁) of the first array. -/
theorem iblk0_apply (c : Dev nD) (t : Fin cfg0.N) (j : S1024x1024.Idx) (b : Fin 16384) (q : Fin 1024)
    (hb : b.val = t.val * 1024 + (j 0).val) (hq : q.val = (j 1).val) :
    iblk m c 0 t j = X0 m c (ix2 b q) := by
  have hi := (idx_facts t).1
  show V m c main_arg0 (((cfg0.win 0).blk t).view.emb j) = _
  rw [V_main_arg0]
  refine congrArg (m ((c : Thread nD τ).loc main_arg0)) (funext fun a => Fin.ext ?_)
  match a with
  | ⟨0, _⟩ => show win0_0.index t 0 * 1024 + 1 * (j 0).val = b.val; rw [hi.1, hb]; omega
  | ⟨1, _⟩ => show win0_0.index t 1 * 1024 + 1 * (j 1).val = q.val; rw [hi.2, hq]; omega

/-- Entry j of point t's second block is entry (1024 t + j₀, j₁) of the second array. -/
theorem iblk1_apply (c : Dev nD) (t : Fin cfg0.N) (j : S1024x512.Idx) (b : Fin 16384) (q : Fin 1024)
    (hb : b.val = t.val * 1024 + (j 0).val) (hq : q.val = (j 1).val) :
    iblk m c 1 t j = X1 m c (ix2 b q) := by
  have hi := (idx_facts t).2.1
  show V m c main_arg1 (((cfg0.win 1).blk t).view.emb j) = _
  rw [V_main_arg1]
  refine congrArg (m ((c : Thread nD τ).loc main_arg1)) (funext fun a => Fin.ext ?_)
  match a with
  | ⟨0, _⟩ => show win0_1.index t 0 * 1024 + 1 * (j 0).val = b.val; rw [hi.1, hb]; omega
  | ⟨1, _⟩ => show win0_1.index t 1 * 512 + 1 * (j 1).val = q.val; rw [hi.2, hq]; omega

/-- The step a point makes adds its tile's sum to the accumulator. -/
theorem step_apply (c : Dev nD) (t : Fin cfg0.N) (acc : FVec Ideal S1x1 .f32) :
    Pieces.step (iblk m c 0 t) (iblk m c 1 t) acc (ix2 (0 : Fin 1) (0 : Fin 1))
      = acc (ix2 (0 : Fin 1) (0 : Fin 1)) + Nll.tileTotal (X0 m c) (X1 m c) (tile t) := by
  refine (Payload.pay3_apply _ _ _ acc).trans ?_
  refine congrArg (acc (ix2 (0 : Fin 1) (0 : Fin 1)) + ·) ?_
  unfold Nll.tileTotal Nll.rowTotal Nll.entry
  refine Finset.sum_congr rfl fun r _ => Finset.sum_congr rfl fun d _ => ?_
  refine congr (congr (congrArg Nll.term ?_) ?_) ?_
  · exact iblk0_apply m c t _ _ _ (by show t.val * 1024 + r.val = t.val * 1024 + (0 + 1 * r.val); omega)
      (by show d.val = 0 + 1 * d.val; omega)
  · exact iblk0_apply m c t _ _ _ (by show t.val * 1024 + r.val = t.val * 1024 + (0 + 1 * r.val); omega)
      (by show 512 + d.val = 512 + 1 * d.val; omega)
  · exact iblk1_apply m c t _ _ _ (by show t.val * 1024 + r.val = t.val * 1024 + r.val; rfl)
      (by show d.val = d.val; rfl)

/-! ## The accumulator, point by point -/

/-- After point n the accumulator holds the running total of tiles 0..n. -/
theorem acc_eq (c : Dev nD) : ∀ (n : ℕ) (hn : n < cfg0.N),
    (outsAt0 m c n hn).2 (ix2 (0 : Fin 1) (0 : Fin 1)) = Nll.chain (X0 m c) (X1 m c) n
  | 0, hn => by
    rw [outsAt0_A m c ⟨0, hn⟩ rfl (by show ¬(0 : ℕ) % 16 = 15; decide)]
    dsimp only
    rw [Pieces.sout_A]
    refine (step_apply m c ⟨0, hn⟩ _).trans ?_
    rw [Payload.pay2_apply, zero_add]
    exact (Nll.tileTotalN_of_lt (X0 m c) (X1 m c) 0 (by decide)).symm
  | n + 1, hn => by
    have hN : n + 1 < 16 := lt_of_lt_of_eq hn N_0
    have h0 : ¬(⟨n + 1, hn⟩ : Fin cfg0.N).val % 16 = 0 := by dsimp only; omega
    have hstep : ∀ acc : FVec Ideal S1x1 .f32, acc (ix2 (0 : Fin 1) (0 : Fin 1)) = Nll.chain (X0 m c) (X1 m c) n →
        Pieces.step (iblk m c 0 ⟨n + 1, hn⟩) (iblk m c 1 ⟨n + 1, hn⟩) acc (ix2 (0 : Fin 1) (0 : Fin 1))
          = Nll.chain (X0 m c) (X1 m c) (n + 1) := fun acc hacc => by
      refine (step_apply m c ⟨n + 1, hn⟩ acc).trans ?_
      rw [hacc]
      exact congrArg (Nll.chain (X0 m c) (X1 m c) n + ·) (Nll.tileTotalN_of_lt (X0 m c) (X1 m c) (n + 1) hN).symm
    by_cases h1 : (⟨n + 1, hn⟩ : Fin cfg0.N).val % 16 = 15
    · rw [outsAt0_C m c ⟨n + 1, hn⟩ h0 h1]
      dsimp only
      rw [Pieces.sout_C]
      exact hstep _ (acc_eq c n _)
    · rw [outsAt0_B m c ⟨n + 1, hn⟩ h0 h1]
      dsimp only
      rw [Pieces.sout_B]
      exact hstep _ (acc_eq c n _)

/-- The result word. -/
abbrev result (c : Dev nD) : Buf (Elt Ideal) ((c : Thread nD τ).loc main_v0) := fun _ => Nll.kernelVal (X0 m c) (X1 m c)

/-- At the last point the output's staging buffer holds the result word. -/
theorem out_eq (c : Dev nD) (t : Fin cfg0.N) (h15 : t.val = 15) : (outsAt0 m c t.val t.isLt).1 = result m c := by
  have h0 : ¬t.val % 16 = 0 := by omega
  have h1 : t.val % 16 = 15 := by omega
  rw [outsAt0_C m c t h0 h1]
  dsimp only
  rw [Pieces.out_C]
  funext j
  obtain rfl : j = ix2 (0 : Fin 1) (0 : Fin 1) := funext fun a => by
    match a with
    | ⟨0, _⟩ => exact Subsingleton.elim (α := Fin 1) _ _
    | ⟨1, _⟩ => exact Subsingleton.elim (α := Fin 1) _ _
  refine (Payload.pay1_apply _).trans ?_
  refine congrArg (Ideal.ofBits .f32 0x38000000#32 * ·) ?_
  refine (step_apply m c t _).trans ?_
  rw [acc_eq m c (t.val - 1) _]
  have e : t.val - 1 = 14 := by omega
  have e' : tile t = ⟨15, by decide⟩ := Fin.ext h15
  rw [e, e']
  exact congrArg (Nll.chain (X0 m c) (X1 m c) 14 + ·) (Nll.tileTotalN_of_lt (X0 m c) (X1 m c) 15 (by decide)).symm

/-! ## The output array and the scalar result -/

/-- The one write-back, at the last point, writes the result word. -/
theorem flushed_eq (c : Dev nD) (t : Fin cfg0.N) (hf : (cfg0.win 2).flush t = true) :
    (dats m 0 c).flushed 2 t = ((cfg0.win 2).blk t).view.read (Elt Ideal) (result m c) := by
  have hN : t.val < 16 := lt_of_lt_of_eq t.isLt N_0
  have h15 : t.val = 15 := by have := (flush0_2 t).mp hf; omega
  have hi := (idx_facts t).2.2
  show (cfg0.win 2).cut (grid0.coords t) ((dats m 0 c).after 2 t) = _
  rw [after0_2, out_eq m c t h15]
  have hz' : (fun a => win0_2.index t a * main_v0.ty.shape.size a) = fun _ => 0 := funext fun a => by
    match a with
    | ⟨0, _⟩ => show win0_2.index t 0 * 1 = 0; rw [hi.1]
    | ⟨1, _⟩ => show win0_2.index t 1 * 1 = 0; rw [hi.2]
  exact (Memref.read_access_unit_zero (Elt Ideal) main_v0 hz' (fun a => by rw [congrFun hz' a]; simp) (result m c)).symm

/-- So the output array ends holding the result word. -/
theorem final_o (c : Dev nD) : (dats m 0 c).arrAt 2 cfg0.N = result m c :=
  (dats m 0 c).arrAt_eq_of_cover 2 (result m c) (flushed_eq m c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat) ∧ (i 0 : Nat) < win0_2.index t0_15 0 * win0_2.size 0 + win0_2.xsize (grid0.coords t0_15) 0
        rw [show win0_2.index t0_15 0 * win0_2.size 0 = 0 from by decide +kernel, show win0_2.xsize (grid0.coords t0_15) 0 = 1 from by decide +kernel]
        omega
      | ⟨1, _⟩ =>
        show win0_2.index t0_15 1 * win0_2.size 1 ≤ (i 1 : Nat) ∧ (i 1 : Nat) < win0_2.index t0_15 1 * win0_2.size 1 + win0_2.xsize (grid0.coords t0_15) 1
        rw [show win0_2.index t0_15 1 * win0_2.size 1 = 0 from by decide +kernel, show win0_2.xsize (grid0.coords t0_15) 1 = 1 from by decide +kernel]
        omega⟩

/-- The reshape after the region reads the output array's one word as the scalar. -/
theorem tail_eq (c : Dev nD) :
    Pipeline.afterTail₀ cfgs (dats m) 0 (V0 m) [hostOps1] c main_v1 = fun _ => Nll.kernelVal (X0 m c) (X1 m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = result m c := (Pipeline.withArrays_arr spec0 launch0.win.arr_inj c _ _ 2).trans (final_o m c)
  funext i
  show shapeCast main_v1.ty.shape (Pipeline.withArrays (cfgs 0).spec c (V0 m c) (fun w => (dats m 0 c).arrAt w (cfgs 0).N)
    (Proc.devRef .tc main_v0)) shapeCasts_S1x1_S_ i = _
  rw [e]
  rfl

/-- The kernel's run, read: the scalar result at 2^-15 times the batch's total, the arguments unchanged. -/
theorem run : θ_run defs (onTc (τ := τ) (main (F := Ideal))) ⟨m, fun _ => 0, ρ⟩ fun r => ∀ c : Dev nD,
      r.2.mem ((c : Thread nD τ).loc main_v1) = (fun _ => Nll.kernelVal (X0 m c) (X1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.NllValue

end
-- ==== Proof.RefValue.lean ====
/-
  What the reference computes: minus the mean over the batch of -1/2 times each row's sum of summands.

  Stage by stage: the four slices read the left and right halves of the two arrays; the outlined softplus is
  max x 0 + log (1 + exp (-|x - 0|)) behind a test "x - 0 differs from itself" that no extended real passes; the
  summand is c + log var + (t - a)^2 / var; the first reduction sums a row's 512 summands from zero, the product with
  -1/2 and the second reduction sum the rows from zero, and the quotient by 16384 and the negation finish.
-/
import proofs.«120077_j14637248544954_1_alg».proof.Proof.Gen.ReferenceIdeal.Read
import Idealize.ShloMosaic.PureOps.Ideal.Laws
import Idealize.ShloMosaic.Lib.ValueIdx
import proofs.«120077_j14637248544954_1_alg».proof.Proof.Sums

noncomputable section

open Idealize.ShloMosaic Idealize.ShloMosaic.ValueIdx

namespace Cert.ReferenceIdeal.NllRef

open Cert.ReferenceIdeal Cert.ReferenceIdeal.Read

/-- No extended real differs from itself: softplus's guard never fires. -/
theorem cmp_une_self (y : EReal) : Ideal.cmp .une y y = 0#1 := by
  unfold Ideal.cmp; simp

/-- The variance at an index: softplus of the raw scale read from the right half of the first array. -/
theorem var_apply (x0 : Nll.Arr) (i : S16384x512.Idx) :
    val_main_v4 (F := Ideal) x0 i = Nll.softplus (x0 (idx_main_v1 i)) := by
  simp only [val_main_v4_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, val_main_v1_apply]
  simp only [Ideal.cmpf_def, Ideal.subf_def, Ideal.addf_def, Ideal.maximumf_def, Ideal.hostUnary_log1p_def,
    Ideal.hostUnary_exp_def, Ideal.hostNegf_def, Ideal.hostAbsf_def, Ideal.negf_def, Ideal.absf_def, Ideal.ofBits_def,
    Ideal.ofBits_zero_f32, sub_zero, add_zero, cmp_une_self, select_zero]
  rfl

/-- The summand at row b, column d. -/
theorem entry_apply (x0 x1 : Nll.Arr) (b : Fin 16384) (d : Fin 512) :
    val_main_v11 (F := Ideal) x0 x1 (ix2 b d) = Nll.entry x0 x1 b d := by
  simp only [val_main_v11_apply, val_main_v9_apply, val_main_v10_apply, val_main_v8_apply, val_main_cst_apply,
    val_main_v7_apply, val_main_v6_apply, val_main_v5_apply, val_main_v2_apply, val_main_v0_apply, var_apply]
  simp only [Ideal.addf_def, Ideal.subf_def, Ideal.mulf_def, Ideal.hostDivf_def, Ideal.hostUnary_log_def, Ideal.ofBits_def]
  have e0 : idx_main_v0 (ix2 b d) = ix2 b (Nll.lo d) := funext fun a => Fin.ext (by
    match a with | ⟨0, _⟩ => rfl | ⟨1, _⟩ => rfl)
  have e1 : idx_main_v1 (ix2 b d) = ix2 b (Nll.hi d) := funext fun a => Fin.ext (by
    match a with | ⟨0, _⟩ => rfl | ⟨1, _⟩ => rfl)
  have e2 : idx_main_v2 (ix2 b d) = ix2 b (Nll.lo d) := funext fun a => Fin.ext (by
    match a with | ⟨0, _⟩ => rfl | ⟨1, _⟩ => rfl)
  rw [e0, e1, e2]
  rfl

/-- A row's sum, from zero. -/
theorem row_apply (x0 x1 : Nll.Arr) (b : Fin 16384) :
    val_main_v12 (F := Ideal) x0 x1 (ix1 b) = Nll.rowTotal x0 x1 b := by
  rw [val_main_v12_apply, val_main_cst_0_apply]
  show Ideal.ofBits .f32 0x00000000#32 + _ = _
  rw [Ideal.ofBits_zero_f32, zero_add]
  refine Finset.sum_congr rfl fun d _ => ?_
  have e : idx_main_v12 (ix1 b) d = ix2 b d := funext fun a => Fin.ext (by
    match a with | ⟨0, _⟩ => rfl | ⟨1, _⟩ => rfl)
  rw [e]
  exact entry_apply x0 x1 b d

/-- The reference's result. -/
theorem result_apply (x0 x1 : Nll.Arr) (i : S_.Idx) :
    val_main_v17 (F := Ideal) x0 x1 i = Nll.refVal x0 x1 := by
  rw [val_main_v17_apply, val_main_v16_apply, val_main_v15_apply, val_main_cst_2_apply, val_main_cst_3_apply]
  simp only [Ideal.hostNegf_def, Ideal.negf_def, Ideal.hostDivf_def, Ideal.ofBits_def, Ideal.ofBits_zero_f32, zero_add]
  unfold Nll.refVal
  refine congrArg (fun s => -(Ideal.div s (Ideal.ofBits .f32 0x46800000#32))) ?_
  refine (Nll.sum_idx1 _).trans (Finset.sum_congr rfl fun b _ => ?_)
  rw [val_main_v14_apply, val_main_v13_apply, val_main_cst_1_apply, row_apply]
  rfl

end Cert.ReferenceIdeal.NllRef

end
-- ==== Proof.Finite.lean ====
/-
  The precondition says that every entry of both argument arrays is a real number.

  It is the conjunction, over the two arrays, of "every entry's absolute value is below +infinity", each taken as an
  "and" over all entries from the constant true.  An "and" that comes out true met only true entries, and an extended
  real whose absolute value is below the top is a real number.
-/
import proofs.«120077_j14637248544954_1_alg».proof.Pre_finite_inputs
import Idealize.ShloMosaic.Lib.ReduceAll
import Idealize.ShloMosaic.Lib.ValueIdx
import proofs.«120077_j14637248544954_1_alg».proof.Proof.LibRealOps

noncomputable section

open Idealize.ShloMosaic

namespace Cert.Pre_finite_inputs.Finite

open Cert.Pre_finite_inputs

instance : Subsingleton S_.Idx := ⟨fun a b => funext fun d => d.elim0⟩

/-- If the precondition holds of two arrays, every entry of each is a real number. -/
theorem real_of_pre [Facts] (x0 x1 : FVec Ideal S16384x1024 .f32) (h : fn (F := Ideal) x0 x1 = fun _ => 1#1) :
    (∀ i, ∃ r : ℝ, x0 i = (r : EReal)) ∧ (∀ i, ∃ r : ℝ, x1 i = (r : EReal)) := by
  have h' := congrFun h ValueIdx.ix0
  dsimp only [fn] at h'
  obtain ⟨ha, hb⟩ := IntOp.andi_eq_one.mp h'
  refine ⟨fun i => ?_, fun i => ?_⟩
  · exact (RealOps.cmp_abs_lt_inf (x0 i)).mp
      (Host.reduce_andi_all _ _ Facts.reducesTo_S16384x1024_S_d0_1 Facts.h_S_ ValueIdx.ix0 ha i)
  · exact (RealOps.cmp_abs_lt_inf (x1 i)).mp
      (Host.reduce_andi_all _ _ Facts.reducesTo_S16384x1024_S_d0_1 Facts.h_S_ ValueIdx.ix0 hb i)

end Cert.Pre_finite_inputs.Finite

end
-- ==== Proof.lean ====
/-
  The diagonal Gaussian negative log-likelihood loss: a tiled kernel against the plain batch mean.

  Both programs take outputs = (means | raw scales) and targets = (targets | unused), two 16384 x 1024 arrays, and
  return one scalar.  With var = softplus (raw scale) and the summand s = c + log var + (target - mean)^2 / var over
  the 16384 x 512 entries:

    kernel     2^-15 * (sum of the summands, accumulated over 16 tiles of 1024 rows in one carried word),
    reference  -( (sum over rows of (-1/2 * the row's sum)) / 16384 ).

  Over the reals these are the same number, since 2^-15 = (1/2) / 16384.  On the extended reals the factor -1/2 does
  not move across a sum that meets infinities of both signs, so the precondition is used: every input entry is a
  real, softplus of a real is a positive real, and so every summand and every sum is a real.

  The three frames: the two kernel programs run by their generated frame certificates; the reference by its generated
  run with the result dropped.  The ideal pass rewrote nothing, so there is nothing to preserve.  For the value claim
  the kernel's scalar is read off its frame run (KernelValue), the reference's off its run stage by stage (RefValue),
  finiteness is read out of the precondition (Finite), and the law of Sums joins the two.
-/
import proofs.«120077_j14637248544954_1_alg».proof.Defs
import proofs.«120077_j14637248544954_1_alg».proof.Proof.Gen.Kernel
import proofs.«120077_j14637248544954_1_alg».proof.Proof.Gen.Kernel.Skeleton
import proofs.«120077_j14637248544954_1_alg».proof.Proof.Gen.Kernel.Launch
import proofs.«120077_j14637248544954_1_alg».proof.Proof.Gen.Kernel.Points
import proofs.«120077_j14637248544954_1_alg».proof.Proof.Gen.Kernel.Frame
import proofs.«120077_j14637248544954_1_alg».proof.Proof.Gen.KernelIdeal
import proofs.«120077_j14637248544954_1_alg».proof.Proof.Gen.KernelIdeal.Skeleton
import proofs.«120077_j14637248544954_1_alg».proof.Proof.Gen.KernelIdeal.Launch
import proofs.«120077_j14637248544954_1_alg».proof.Proof.Gen.KernelIdeal.Points
import proofs.«120077_j14637248544954_1_alg».proof.Proof.Gen.KernelIdeal.Frame
import proofs.«120077_j14637248544954_1_alg».proof.Proof.Gen.ReferenceIdeal
import proofs.«120077_j14637248544954_1_alg».proof.Proof.Gen.ReferenceIdeal.Run
import proofs.«120077_j14637248544954_1_alg».proof.Proof.Gen.ReferenceIdeal.Read
import proofs.«120077_j14637248544954_1_alg».proof.Proof.Gen.Pre_finite_inputs
import proofs.«120077_j14637248544954_1_alg».proof.Proof.KernelValue
import proofs.«120077_j14637248544954_1_alg».proof.Proof.RefValue
import proofs.«120077_j14637248544954_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arrays and satisfy the precondition, both programs end with the same scalar:
    the kernel's 2^-15 times the batch total, which on real inputs is the reference's negated mean. -/
theorem algebraic : Cert.algebraic_KernelIdeal_ReferenceIdeal := by
  intro m ρ m' ρ' hpre hagree
  refine ⟨fun c => fun _ => Cert.Nll.kernelVal (Cert.KernelIdeal.NllValue.X0 m c) (Cert.KernelIdeal.NllValue.X1 m c),
    Cert.KernelIdeal.NllValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v17_eq _ _).trans (funext fun i => ?_)
  obtain ⟨h0, h1⟩ := Cert.Pre_finite_inputs.Finite.real_of_pre _ _ (hpre c)
  exact (Cert.ReferenceIdeal.NllRef.result_apply _ _ i).trans (Cert.Nll.kernelVal_eq_refVal _ _ h0 h1).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
